-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_cst_3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S1x64 : Shape := ⟨2, ![1, 64]⟩
abbrev S64x32768 : Shape := ⟨2, ![64, 32768]⟩
abbrev S4096x768 : Shape := ⟨2, ![4096, 768]⟩
abbrev S64x4096 : Shape := ⟨2, ![64, 4096]⟩
abbrev S64x1 : Shape := ⟨2, ![64, 1]⟩
abbrev S4096 : Shape := ⟨1, ![4096]⟩
abbrev S1x4096 : Shape := ⟨2, ![1, 4096]⟩
abbrev S32768x64 : Shape := ⟨2, ![32768, 64]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S1x64, .f32⟩
  | .hbm, ⟨4, _⟩ => ⟨S64x32768, .f32⟩
  | .hbm, ⟨5, _⟩ => ⟨S64x32768, .f32⟩
  | .hbm, ⟨6, _⟩ => ⟨S32768x64, .f32⟩
  | .hbm, ⟨7, _⟩ => ⟨S32768x64, .f32⟩
  | .hbm, ⟨8, _⟩ => ⟨S_, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S1x64, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S64x1 : S1x64.ShapeCasts S64x1
  inb_S64x768_S64x768_0_0 : ∀ a, (![0, 0] : Fin 2 → Nat) a + S64x768.size a ≤ S64x768.size a
  h_S64x768 : 0 < S64x768.numel
  inb_S4096x768_S4096x768_0_0 : ∀ a, (![0, 0] : Fin 2 → Nat) a + S4096x768.size a ≤ S4096x768.size a
  h_S4096x768 : 0 < S4096x768.numel
  broadcasts_S64x1_S64x4096 : S64x1.Broadcasts S64x4096
  inb_S64x4096_S64x4096_0_0 : ∀ a, (![0, 0] : Fin 2 → Nat) a + S64x4096.size a ≤ S64x4096.size a
  h_S64x4096 : 0 < S64x4096.numel
  reduces_S64x4096_S4096 : S64x4096.Reduces [0] S4096
  shapeCasts_S4096_S1x4096 : S4096.ShapeCasts S1x4096
  broadcasts_S1x4096_S64x4096 : S1x4096.Broadcasts S64x4096
  transposes_S64x32768_S32768x64_1_0 : S64x32768.Transposes [1, 0] S32768x64
  dot_S64x768_S4096x768_S64x4096_1_1_0_0_n_n_wf : DotDims.WF S64x768 S4096x768 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x32768.size a
  hwx0_3 : ∀ i : grid0.Coords, EltTy.bits .f32 = 32 ∨ (Rect.block (s := S64x32768) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x32768.size a
  hwx0_4 : ∀ i : grid0.Coords, EltTy.bits .f32 = 32 ∨ (Rect.block (s := S64x32768) S64x4096.size (cc0_transform_4 i) (hinb0_4 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 26
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768x64, .f32⟩
  | .hbm, ⟨10, _⟩ => ⟨S32768x64, .f32⟩
  | .hbm, ⟨11, _⟩ => ⟨S_, .f32⟩
  | .hbm, ⟨12, _⟩ => ⟨S32768, .f32⟩
  | .hbm, ⟨13, _⟩ => ⟨S_, .f32⟩
  | .hbm, ⟨14, _⟩ => ⟨S32768, .f32⟩
  | .hbm, ⟨15, _⟩ => ⟨S32768, .f32⟩
  | .hbm, ⟨16, _⟩ => ⟨S32768x1, .f32⟩
  | .hbm, ⟨17, _⟩ => ⟨S32768x64, .f32⟩
  | .hbm, ⟨18, _⟩ => ⟨S32768x64, .f32⟩
  | .hbm, ⟨19, _⟩ => ⟨S32768x64, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S32768x64, .f32⟩
  | .hbm, ⟨24, _⟩ => ⟨S32768x64, .f32⟩
  | .hbm, ⟨25, _⟩ => ⟨S_, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.GateSpec.lean ====
/-
  The router gate as mathematics, over the extended reals.

  For a token with feature row `x n`, expert weight rows `W e` and biases `b e`:
    logit n e  = Σ_k x n k · W e k + b e
    rowMax n   = max over the 64 experts of logit n e (from −∞)
    expShift n e = exp (logit n e − rowMax n)
    weight n e = expShift n e / Σ_e' expShift n e'
  i.e. the logits of a linear layer and their softmax along the expert axis, the softmax taken in the usual
  max-shifted form. The arrays are given by coordinates (`Fin T → Fin 768 → EReal` and so on), so that the same
  definitions speak of the whole token array and of one tile of its rows; every quantity at token `n` depends on
  row `n` of `x` alone (`*_row`), which is what lets a tile's result be read as a piece of the whole.
-/
import Idealize.ShloMosaic.PureOps.Ideal.Laws
import Idealize.ShloMosaic.Lib.ValueIdx

noncomputable section

namespace Cert.Gate

open Idealize.ShloMosaic

variable {T T' : ℕ} (x : Fin T → Fin 768 → EReal) (x' : Fin T' → Fin 768 → EReal)
  (W : Fin 64 → Fin 768 → EReal) (b : Fin 64 → EReal)

/-- The linear layer's output for token `n` and expert `e`. -/
def logit (n : Fin T) (e : Fin 64) : EReal := (∑ k : Fin 768, x n k * W e k) + b e

/-- The largest logit of token `n`, the maximum taken from −∞ (the f32 pattern of −∞). -/
def rowMax (n : Fin T) : EReal :=
  (Finset.univ : Finset (Fin 64)).fold max (Ideal.ofBits .f32 0xFF800000#32) (fun e => logit x W b n e)

/-- The shifted exponential of a logit. -/
def expShift (n : Fin T) (e : Fin 64) : EReal := Ideal.exp (logit x W b n e - rowMax x W b n)

/-- The softmax weight of expert `e` for token `n`. -/
def weight (n : Fin T) (e : Fin 64) : EReal := Ideal.div (expShift x W b n e) (∑ e' : Fin 64, expShift x W b n e')

/-! ## Each quantity at a token depends on that token's feature row alone -/

theorem logit_row (n : Fin T) (n' : Fin T') (h : x n = x' n') (e : Fin 64) : logit x W b n e = logit x' W b n' e := by
  unfold logit; rw [h]

theorem rowMax_row (n : Fin T) (n' : Fin T') (h : x n = x' n') : rowMax x W b n = rowMax x' W b n' := by
  unfold rowMax; rw [funext (logit_row x x' W b n n' h)]

theorem expShift_row (n : Fin T) (n' : Fin T') (h : x n = x' n') (e : Fin 64) :
    expShift x W b n e = expShift x' W b n' e := by
  unfold expShift; rw [logit_row x x' W b n n' h, rowMax_row x x' W b n n' h]

theorem weight_row (n : Fin T) (n' : Fin T') (h : x n = x' n') (e : Fin 64) : weight x W b n e = weight x' W b n' e := by
  unfold weight; rw [funext (expShift_row x x' W b n n' h)]

/-! ## The two results as arrays of the three argument arrays -/

open Idealize.ShloMosaic.ValueIdx

variable (x0 : FVec Ideal ⟨2, ![32768, 768]⟩ .f32) (x1 : FVec Ideal ⟨2, ![64, 768]⟩ .f32) (x2 : FVec Ideal ⟨1, ![64]⟩ .f32)

/-- The logits of every token, token-major: entry `(n, e)`. -/
def logitsArr : FVec Ideal ⟨2, ![32768, 64]⟩ .f32 :=
  fun i => logit (fun n k => x0 (ix2 n k)) (fun e k => x1 (ix2 e k)) (fun e => x2 (ix1 e)) (i 0) (i 1)

/-- The softmax weights of every token, token-major: entry `(n, e)`. -/
def weightsArr : FVec Ideal ⟨2, ![32768, 64]⟩ .f32 :=
  fun i => weight (fun n k => x0 (ix2 n k)) (fun e k => x1 (ix2 e k)) (fun e => x2 (ix1 e)) (i 0) (i 1)

/-- The same logits experts-major (the transposed array): entry `(e, n)`. -/
def logitsArrT : FVec Ideal ⟨2, ![64, 32768]⟩ .f32 :=
  fun i => logit (fun n k => x0 (ix2 n k)) (fun e k => x1 (ix2 e k)) (fun e => x2 (ix1 e)) (i 1) (i 0)

/-- The same weights experts-major: entry `(e, n)`. -/
def weightsArrT : FVec Ideal ⟨2, ![64, 32768]⟩ .f32 :=
  fun i => weight (fun n k => x0 (ix2 n k)) (fun e k => x1 (ix2 e k)) (fun e => x2 (ix1 e)) (i 1) (i 0)

end Cert.Gate

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.RefGate.lean ====
/-
  The reference, read stage by stage at an index, is the router gate of `GateSpec`: its `x @ W.T + b` is the logit,
  the division by the temperature 1 changes nothing, the row maximum (taken from −∞, then once more against −∞) is
  `rowMax`, the exponential of the shifted logit is `expShift`, its row sum (from 0) the softmax's denominator, and
  the quotient the softmax weight. The arrays are read through their coordinates: token `n`, expert `e`, feature `k`.
-/
import proofs.«169324_g11390253269175_week1_w4_310_13_alg».proof.Proof.Gen.ReferenceIdeal.Read
import proofs.«169324_g11390253269175_week1_w4_310_13_alg».proof.Proof.GateSpec
import proofs.«169324_g11390253269175_week1_w4_310_13_alg».proof.Proof.LibRowColumn

noncomputable section

namespace Cert.ReferenceIdeal.GateValue

open Cert.ReferenceIdeal Cert.ReferenceIdeal.Gen Cert.ReferenceIdeal.Read
open Idealize.ShloMosaic Idealize.ShloMosaic.ValueIdx Idealize.ShloMosaic.RowColumn

variable (x0 : FVec Ideal S32768x768 .f32) (x1 : FVec Ideal S64x768 .f32) (x2 : FVec Ideal S64 .f32)

/-- The token array by coordinates. -/
abbrev tok : Fin 32768 → Fin 768 → EReal := fun n k => x0 (ix2 n k)
/-- The experts' weight rows by coordinates. -/
abbrev wgt : Fin 64 → Fin 768 → EReal := fun e k => x1 (ix2 e k)
/-- The experts' biases by coordinate. -/
abbrev bias : Fin 64 → EReal := fun e => x2 (ix1 e)

/-- `x @ W.T + b` at `(n, e)` is the logit: the transposed weight at `(k, e)` is `W (e, k)`, the bias row is `b e` on every token. -/
theorem linear_apply (n : Fin 32768) (e : Fin 64) :
    val_main_v4 (F := Ideal) x0 x1 x2 (ix2 n e) = Cert.Gate.logit (tok x0) (wgt x1) (bias x2) n e := by
  rw [val_main_v4_apply, val_main_v1_apply, val_main_v3_apply, val_main_v2_apply]
  unfold Cert.Gate.logit
  simp only [Ideal.addf_def]
  congr 1
  · refine Finset.sum_congr rfl fun k _ => ?_
    rw [val_main_v0_apply]
    congr 1 <;> exact congrArg _ (funext fun a => Fin.ext (by match a with | ⟨0, _⟩ => rfl | ⟨1, _⟩ => rfl))
  · exact congrArg x2 (funext fun a => Fin.ext (by match a with | ⟨0, _⟩ => rfl))

/-- Divided by the temperature, which is 1, the logit is itself. -/
theorem scaled_apply (n : Fin 32768) (e : Fin 64) :
    val_main_v6 (F := Ideal) x0 x1 x2 (ix2 n e) = Cert.Gate.logit (tok x0) (wgt x1) (bias x2) n e := by
  rw [val_main_v6_apply, val_main_v5_apply, val_main_cst_apply]
  simp only [Ideal.hostDivf_def, Ideal.ofBits_def]
  rw [div_one]
  exact linear_apply x0 x1 x2 n e

/-- The reduce with a maximum body along the experts, from −∞, is the row maximum. -/
theorem reduceMax_apply (n : Fin 32768) :
    val_main_v7 (F := Ideal) x0 x1 x2 (ix1 n) = Cert.Gate.rowMax (tok x0) (wgt x1) (bias x2) n := by
  unfold val_main_v7
  rw [hostReduce_maximumf_cols _ _ reducesTo_S32768x64_S32768_d1 (by decide) h_S_ n]
  unfold Cert.Gate.rowMax
  exact congrArg (fun f => Finset.fold max (Ideal.ofBits .f32 0xFF800000#32) f (Finset.univ : Finset (Fin 64)))
    (funext fun e => scaled_apply x0 x1 x2 n e)

/-- The maximum of that with −∞ is still the row maximum. -/
theorem rowMax_apply (n : Fin 32768) :
    val_main_v9 (F := Ideal) x0 x1 x2 (ix1 n) = Cert.Gate.rowMax (tok x0) (wgt x1) (bias x2) n := by
  rw [val_main_v9_apply, val_main_v8_apply, val_main_cst_1_apply]
  simp only [Ideal.maximumf_def, Ideal.ofBits_def]
  rw [max_negInf]
  exact reduceMax_apply x0 x1 x2 n

/-- The row maximum, kept as a column and broadcast along the experts, at `(n, e)`. -/
theorem rowMaxBroadcast_apply (n : Fin 32768) (e : Fin 64) :
    val_main_v11 (F := Ideal) x0 x1 x2 (ix2 n e) = Cert.Gate.rowMax (tok x0) (wgt x1) (bias x2) n := by
  rw [val_main_v11_apply, val_main_v10_apply]
  refine Eq.trans (congrArg _ (funext fun a => Fin.ext (by match a with | ⟨0, _⟩ => rfl))) (rowMax_apply x0 x1 x2 n)

/-- The exponential of the shifted logit. -/
theorem exp_apply (n : Fin 32768) (e : Fin 64) :
    val_main_v13 (F := Ideal) x0 x1 x2 (ix2 n e) = Cert.Gate.expShift (tok x0) (wgt x1) (bias x2) n e := by
  rw [val_main_v13_apply, val_main_v12_apply]
  simp only [Ideal.hostUnary_exp_def, Ideal.subf_def]
  rw [scaled_apply, rowMaxBroadcast_apply]
  rfl

/-- The sum of those along the experts, from 0. -/
theorem expSum_apply (n : Fin 32768) :
    val_main_v14 (F := Ideal) x0 x1 x2 (ix1 n) = ∑ e : Fin 64, Cert.Gate.expShift (tok x0) (wgt x1) (bias x2) n e := by
  rw [val_main_v14_apply, val_main_cst_2_apply]
  simp only [Ideal.ofBits_def]
  rw [Ideal.ofBits_zero_f32, zero_add]
  refine Finset.sum_congr rfl fun k _ => ?_
  refine Eq.trans (congrArg _ (funext fun a => Fin.ext (by match a with | ⟨0, _⟩ => rfl | ⟨1, _⟩ => rfl))) (exp_apply x0 x1 x2 n k)

/-- The softmax weight. -/
theorem softmax_apply (n : Fin 32768) (e : Fin 64) :
    val_main_v17 (F := Ideal) x0 x1 x2 (ix2 n e) = Cert.Gate.weight (tok x0) (wgt x1) (bias x2) n e := by
  rw [val_main_v17_apply, val_main_v16_apply, val_main_v15_apply]
  simp only [Ideal.hostDivf_def]
  unfold Cert.Gate.weight
  rw [exp_apply]
  refine congrArg (Ideal.div _) ?_
  refine Eq.trans (congrArg _ (funext fun a => Fin.ext (by match a with | ⟨0, _⟩ => rfl))) (expSum_apply x0 x1 x2 n)

/-- The reference's logits, as one array. -/
theorem logits_eq : val_main_v4 (F := Ideal) x0 x1 x2 = Cert.Gate.logitsArr x0 x1 x2 := by
  funext i
  obtain ⟨n, e, rfl⟩ : ∃ (n : Fin 32768) (e : Fin 64), i = ix2 n e := ⟨i 0, i 1, eq_ix2 i⟩
  exact linear_apply x0 x1 x2 n e

/-- The reference's softmax weights, as one array. -/
theorem weights_eq : val_main_v17 (F := Ideal) x0 x1 x2 = Cert.Gate.weightsArr x0 x1 x2 := by
  funext i
  obtain ⟨n, e, rfl⟩ : ∃ (n : Fin 32768) (e : Fin 64), i = ix2 n e := ⟨i 0, i 1, eq_ix2 i⟩
  exact softmax_apply x0 x1 x2 n e

end Cert.ReferenceIdeal.GateValue

end
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.GateBody.lean ====
/-
  What the kernel body computes on one tile, read at an index: with the tile's 4096 token rows `xb`, the weight rows `w`
  and the bias as a one-row matrix `bR`, the first stored value at (expert `e`, token `q`) is the logit of token `q` and
  expert `e` (the product `W · xbᵀ` summed over the features, the bias column added), and the second stored value is its
  softmax weight: the maximum and the sum are taken DOWN each column of the experts-major tile, which is along the experts
  for one token. Both are the quantities of `GateSpec` for the tile's rows.
-/
import proofs.«169324_g11390253269175_week1_w4_310_13_alg».proof.Proof.Gen.KernelIdeal.Skeleton
import proofs.«169324_g11390253269175_week1_w4_310_13_alg».proof.Proof.GateSpec
import proofs.«169324_g11390253269175_week1_w4_310_13_alg».proof.Proof.LibRowColumn
import proofs.«169324_g11390253269175_week1_w4_310_13_alg».proof.Proof.LibDotTransposedRhs
import proofs.«169324_g11390253269175_week1_w4_310_13_alg».proof.Proof.LibColumn
import Idealize.ShloMosaic.Lib.ValueLayout

noncomputable section

namespace Cert.KernelIdeal.GateBody

open Cert.KernelIdeal Cert.KernelIdeal.Gen
open Idealize.ShloMosaic Idealize.ShloMosaic.ValueIdx Idealize.ShloMosaic.RowColumn

variable (bR : FVec Ideal S1x64 .f32) (w : FVec Ideal S64x768 .f32) (xb : FVec Ideal S4096x768 .f32)

/-- The tile's token rows by coordinates. -/
abbrev tile : Fin 4096 → Fin 768 → EReal := fun q k => xb (ix2 q k)
/-- The experts' weight rows by coordinates. -/
abbrev wgt : Fin 64 → Fin 768 → EReal := fun e k => w (ix2 e k)
/-- The experts' biases, read off the one-row matrix. -/
abbrev biasRow : Fin 64 → EReal := fun e => bR (ix2 (0 : Fin 1) e)

/-- The bias row turned into a column and broadcast along the tokens reads `b e` at every `(e, q)`. -/
theorem biasBroadcast_apply (e : Fin 64) (q : Fin 4096) :
    broadcastTo S64x4096 (shapeCast S64x1 (shapeCast S1x64 bR shapeCasts_S1x64_S1x64) shapeCasts_S1x64_S64x1)
      broadcasts_S64x1_S64x4096 (ix2 e q) = bR (ix2 (0 : Fin 1) e) := by
  rw [shapeCast_self]
  refine (Column.broadcastTo_a1_ab_apply _ _ e q).trans ?_
  exact shapeCast_1a_a1_apply bR _ e 0

/-- The product `W · xbᵀ` at `(e, q)`. -/
theorem product_apply (e : Fin 64) (q : Fin 4096) :
    matmul dot_S64x768_S4096x768_S64x4096_1_1_0_0_n_n none w xb (constant S64x4096 .f32 0x00000000#32) (ix2 e q)
      = ∑ k : Fin 768, w (ix2 e k) * xb (ix2 q k) :=
  DotTransposedRhs.matmul_apply_ix2 none w xb e q

/-- The first stored value is the logit. -/
theorem logits_apply (e : Fin 64) (q : Fin 4096) :
    k0_pay1 (F := Ideal) bR w xb (ix2 e q) = Cert.Gate.logit (tile xb) (wgt w) (biasRow bR) q e := by
  unfold k0_pay1
  refine (addf_apply _ _ _).trans ?_
  unfold Cert.Gate.logit
  refine congrArg₂ (· + ·) ?_ (biasBroadcast_apply bR e q)
  refine (product_apply w xb e q).trans ?_
  exact Finset.sum_congr rfl fun k _ => mul_comm _ _

/-- A vector over the tokens kept as one row and broadcast down the experts reads its entry `q` at every `(e, q)`. -/
theorem rowBroadcast_apply (v : FVec Ideal S4096 .f32) (e : Fin 64) (q : Fin 4096) :
    broadcastTo S64x4096 (shapeCast S1x4096 v shapeCasts_S4096_S1x4096) broadcasts_S1x4096_S64x4096 (ix2 e q) = v (ix1 q) := by
  refine (broadcastTo_1b_ab_apply _ _ e q).trans ?_
  exact shapeCast_a_1a_apply v _ 0 q

/-- The maximum down each column of the logits, broadcast back over the tile. -/
def colMax : FVec Ideal S64x4096 .f32 :=
  broadcastTo S64x4096 (shapeCast S1x4096 (multiReduction .maximumf [0] S4096 (k0_pay1 bR w xb) 0xFF800000#32
    reduces_S64x4096_S4096 (.inl rfl) rfl) shapeCasts_S4096_S1x4096) broadcasts_S1x4096_S64x4096

/-- The exponentials of the shifted logits. -/
def shifted : FVec Ideal S64x4096 .f32 := exp (subf (k0_pay1 bR w xb) (colMax bR w xb))

/-- Their sum down each column, broadcast back over the tile. -/
def colSum : FVec Ideal S64x4096 .f32 :=
  broadcastTo S64x4096 (shapeCast S1x4096 (multiReduction .add [0] S4096 (shifted bR w xb) 0x00000000#32
    reduces_S64x4096_S4096 (.inl rfl) rfl) shapeCasts_S4096_S1x4096) broadcasts_S1x4096_S64x4096

/-- The second stored value is the quotient of the two. -/
theorem pay2_eq : k0_pay2 (F := Ideal) bR w xb = divf (shifted bR w xb) (colSum bR w xb) := rfl

theorem colMax_apply (e : Fin 64) (q : Fin 4096) :
    colMax bR w xb (ix2 e q) = Cert.Gate.rowMax (tile xb) (wgt w) (biasRow bR) q := by
  unfold colMax
  refine (rowBroadcast_apply _ e q).trans ?_
  refine (multiReduction_maximumf_rows (k0_pay1 bR w xb) 0xFF800000#32 reduces_S64x4096_S4096 (.inl rfl) rfl q).trans ?_
  unfold Cert.Gate.rowMax
  exact congrArg (fun f => Finset.fold max (Ideal.ofBits .f32 0xFF800000#32) f (Finset.univ : Finset (Fin 64)))
    (funext fun e' => logits_apply bR w xb e' q)

theorem shifted_apply (e : Fin 64) (q : Fin 4096) :
    shifted bR w xb (ix2 e q) = Cert.Gate.expShift (tile xb) (wgt w) (biasRow bR) q e := by
  show Ideal.exp (k0_pay1 (F := Ideal) bR w xb (ix2 e q) - colMax bR w xb (ix2 e q)) = _
  rw [logits_apply, colMax_apply]
  rfl

theorem colSum_apply (e : Fin 64) (q : Fin 4096) :
    colSum bR w xb (ix2 e q) = ∑ e' : Fin 64, Cert.Gate.expShift (tile xb) (wgt w) (biasRow bR) q e' := by
  unfold colSum
  refine (rowBroadcast_apply _ e q).trans ?_
  refine (multiReduction_add_rows (shifted bR w xb) 0x00000000#32 reduces_S64x4096_S4096 (.inl rfl) rfl q).trans ?_
  exact Finset.sum_congr rfl fun e' _ => shifted_apply bR w xb e' q

/-- The second stored value is the softmax weight. -/
theorem weights_apply (e : Fin 64) (q : Fin 4096) :
    k0_pay2 (F := Ideal) bR w xb (ix2 e q) = Cert.Gate.weight (tile xb) (wgt w) (biasRow bR) q e := by
  rw [pay2_eq]
  show Ideal.div (shifted bR w xb (ix2 e q)) (colSum bR w xb (ix2 e q)) = _
  rw [shifted_apply, colSum_apply]
  rfl

end Cert.KernelIdeal.GateBody

end
-- ==== Proof.GateBlocks.lean ====
/-
  From tiles to arrays. The grid has eight points; point `t` is handed rows `4096·t … 4096·t + 4095` of the token array, the
  whole weight matrix and the whole bias row (the bias reshaped to one row by the host before the call), and writes back
  columns `4096·t … 4096·t + 4095` of the two experts-major outputs. What it writes back is that block of ONE array, the
  gate's logits (resp. softmax weights) of every token, experts-major: an entry of the tile at (expert `e`, column `q`)
  belongs to token `4096·t + q`, and the gate of a token depends on that token's row alone. The eight blocks cover the
  32768 columns (column `n` is in block `n / 4096`), so each output array ends holding the whole function.
-/
import proofs.«169324_g11390253269175_week1_w4_310_13_alg».proof.Proof.Gen.KernelIdeal.Frame
import proofs.«169324_g11390253269175_week1_w4_310_13_alg».proof.Proof.GateBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.GateBlocks

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The printed index maps over the grid: the token tile and the two output tiles move with the point along one axis,
    the weights and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Row `q` of point `t`'s token tile is row `4096·t + q` of the token array. -/
theorem tile_apply (c : Dev nD) (t : Fin cfg0.N) (q : Fin 4096) (k : Fin 768) (n : Fin 32768) (hn : n.val = t.val * 4096 + q.val) :
    (iblk m c 0 t : FVec Ideal S4096x768 .f32) (ix2 q k)
      = (m ((c : Thread nD τ).loc main_arg0) : FVec Ideal S32768x768 .f32) (ix2 n k) := by
  obtain ⟨e0, e1, -⟩ := idx_facts t
  unfold iblk
  rw [View.read_apply]
  show V m c main_arg0 _ = _
  refine (congrFun (V_main_arg0 m c) _).trans ?_
  refine congrArg _ (funext fun a => Fin.ext ?_)
  match a with
  | ⟨0, _⟩ => show win0_0.index t (0 : Fin 2) * 4096 + 1 * q.val = n.val; omega
  | ⟨1, _⟩ => show win0_0.index t (1 : Fin 2) * 768 + 1 * k.val = k.val; omega

/-- Every point's weight tile is the whole weight matrix. -/
theorem wgt_apply (c : Dev nD) (t : Fin cfg0.N) (e : Fin 64) (k : Fin 768) :
    (iblk m c 1 t : FVec Ideal S64x768 .f32) (ix2 e k)
      = (m ((c : Thread nD τ).loc main_arg1) : FVec Ideal S64x768 .f32) (ix2 e k) := by
  obtain ⟨-, -, e2, e3, -⟩ := idx_facts t
  unfold iblk
  rw [View.read_apply]
  show V m c main_arg1 _ = _
  refine (congrFun (V_main_arg1 m c) _).trans ?_
  refine congrArg _ (funext fun a => Fin.ext ?_)
  match a with
  | ⟨0, _⟩ => show win0_1.index t (0 : Fin 2) * 64 + 1 * e.val = e.val; omega
  | ⟨1, _⟩ => show win0_1.index t (1 : Fin 2) * 768 + 1 * k.val = k.val; omega

/-- The one-row array the region is launched with is the bias vector, reshaped by the host. -/
theorem biasRowArray (c : Dev nD) :
    (V m c main_v0 : S1x64.Idx → EReal) = shapeCast S1x64 (m ((c : Thread nD τ).loc main_arg2) : FVec Ideal S64 .f32) shapeCasts_S64_S1x64 := by
  show StableHlo.after hostOps0 (fun b => m (c, b)) (Proc.devRef .tc main_v0) = _
  after_results
  rfl

/-- Every point's bias tile is that one row: entry `(0, e)` is the bias of expert `e`. -/
theorem biasRow_apply (c : Dev nD) (t : Fin cfg0.N) (e : Fin 64) :
    (iblk m c 2 t : FVec Ideal S1x64 .f32) (ix2 (0 : Fin 1) e)
      = (m ((c : Thread nD τ).loc main_arg2) : FVec Ideal S64 .f32) (ix1 e) := by
  obtain ⟨-, -, -, -, e4, e5, -⟩ := idx_facts t
  unfold iblk
  rw [View.read_apply]
  show V m c main_v0 _ = _
  refine (congrFun (biasRowArray m c) _).trans ?_
  refine shapeCast_apply _ _ _ _ ?_
  show ((⟨1, ![64]⟩ : Shape).rowMajor (ix1 e)).val
    = ((⟨2, ![1, 64]⟩ : Shape).rowMajor (((cfg0.win 2).blk t).view.emb (ix2 (0 : Fin 1) e))).val
  rw [Shape.rowMajor_val_one, Shape.rowMajor_val_two]
  show e.val = (win0_2.index t (0 : Fin 2) * 1 + 1 * 0) * 64 + (win0_2.index t (1 : Fin 2) * 64 + 1 * e.val)
  omega

/-! ## What a point writes back -/

/-- The three argument arrays, named. -/
abbrev tokens (c : Dev nD) : FVec Ideal S32768x768 .f32 := m ((c : Thread nD τ).loc main_arg0)
abbrev weightRows (c : Dev nD) : FVec Ideal S64x768 .f32 := m ((c : Thread nD τ).loc main_arg1)
abbrev biases (c : Dev nD) : FVec Ideal S64 .f32 := m ((c : Thread nD τ).loc main_arg2)

/-- The weight tile, by coordinates, is the weight matrix, at every point. -/
theorem wgt_eq (c : Dev nD) (t : Fin cfg0.N) :
    GateBody.wgt (iblk m c 1 t) = fun e k => weightRows m c (ix2 e k) :=
  funext fun e => funext fun k => wgt_apply m c t e k

/-- The bias tile, by coordinates, is the bias vector, at every point. -/
theorem biasRow_eq (c : Dev nD) (t : Fin cfg0.N) :
    GateBody.biasRow (iblk m c 2 t) = fun e => biases m c (ix1 e) :=
  funext fun e => biasRow_apply m c t e

/-- Row `q` of point `t`'s token tile, by coordinates, is row `4096·t + q` of the token array. -/
theorem tile_row (c : Dev nD) (t : Fin cfg0.N) (q : Fin 4096) (n : Fin 32768) (hn : n.val = t.val * 4096 + q.val) :
    GateBody.tile (iblk m c 0 t) q = (fun (n : Fin 32768) (k : Fin 768) => tokens m c (ix2 n k)) n :=
  funext fun k => tile_apply m c t q k n hn

/-- Entry `(e, q)` of point `t`'s output block sits at `(e, 4096·t + q)` of an output array. -/
theorem emb3 (t : Fin cfg0.N) (e : Fin 64) (q : Fin 4096) (n : Fin 32768) (hn : n.val = t.val * 4096 + q.val) :
    ((cfg0.win 3).blk t).view.emb (ix2 e q) = (ix2 e n : S64x32768.Idx) := by
  obtain ⟨-, -, -, -, -, -, e6, e7, -⟩ := idx_facts t
  refine funext fun a => Fin.ext ?_
  match a with
  | ⟨0, _⟩ => show win0_3.index t (0 : Fin 2) * 64 + 1 * e.val = e.val; omega
  | ⟨1, _⟩ => show win0_3.index t (1 : Fin 2) * 4096 + 1 * q.val = n.val; omega

theorem emb4 (t : Fin cfg0.N) (e : Fin 64) (q : Fin 4096) (n : Fin 32768) (hn : n.val = t.val * 4096 + q.val) :
    ((cfg0.win 4).blk t).view.emb (ix2 e q) = (ix2 e n : S64x32768.Idx) := by
  obtain ⟨-, -, -, -, -, -, -, -, e8, e9⟩ := idx_facts t
  refine funext fun a => Fin.ext ?_
  match a with
  | ⟨0, _⟩ => show win0_4.index t (0 : Fin 2) * 64 + 1 * e.val = e.val; omega
  | ⟨1, _⟩ => show win0_4.index t (1 : Fin 2) * 4096 + 1 * q.val = n.val; omega

/-- Point `t` writes back block `t` of the experts-major logits of every token. -/
theorem flushed3_eq (c : Dev nD) (t : Fin cfg0.N) :
    (dats m 0 c).flushed 3 t
      = ((cfg0.win 3).blk t).view.read (Elt Ideal) (Cert.Gate.logitsArrT (tokens m c) (weightRows m c) (biases m c)) := by
  show (cfg0.win 3).cut (grid0.coords t) ((dats m 0 c).after 3 t) = _
  rw [after0_3]
  unfold out0_3
  rw [View.canon_unit_zero hz]
  simp only [View.ld_unit_zero (S := S1x64) hz, View.ld_unit_zero (S := S64x768) hz, View.ld_unit_zero (S := S4096x768) hz]
  funext j
  obtain ⟨e, q, rfl⟩ : ∃ (e : Fin 64) (q : Fin 4096), j = ix2 e q := ⟨j 0, j 1, eq_ix2 j⟩
  have hN : cfg0.N = 8 := N_0
  have ht : t.val < 8 := hN ▸ t.isLt
  obtain ⟨n, hn⟩ : ∃ n : Fin 32768, n.val = t.val * 4096 + q.val := ⟨⟨t.val * 4096 + q.val, by omega⟩, rfl⟩
  show k0_pay1 (F := Ideal) (iblk m c 2 t) (iblk m c 1 t) (iblk m c 0 t) (ix2 e q)
    = Cert.Gate.logitsArrT (tokens m c) (weightRows m c) (biases m c) (((cfg0.win 3).blk t).view.emb (ix2 e q))
  refine (GateBody.logits_apply (iblk m c 2 t) (iblk m c 1 t) (iblk m c 0 t) e q).trans ?_
  rw [emb3 t e q n hn, wgt_eq m c t, biasRow_eq m c t]
  exact Cert.Gate.logit_row _ _ _ _ q n (tile_row m c t q n hn) e

/-- Point `t` writes back block `t` of the experts-major softmax weights of every token. -/
theorem flushed4_eq (c : Dev nD) (t : Fin cfg0.N) :
    (dats m 0 c).flushed 4 t
      = ((cfg0.win 4).blk t).view.read (Elt Ideal) (Cert.Gate.weightsArrT (tokens m c) (weightRows m c) (biases m c)) := by
  show (cfg0.win 4).cut (grid0.coords t) ((dats m 0 c).after 4 t) = _
  rw [after0_4]
  unfold out0_4
  rw [View.canon_unit_zero hz]
  simp only [View.ld_unit_zero (S := S1x64) hz, View.ld_unit_zero (S := S64x768) hz, View.ld_unit_zero (S := S4096x768) hz]
  funext j
  obtain ⟨e, q, rfl⟩ : ∃ (e : Fin 64) (q : Fin 4096), j = ix2 e q := ⟨j 0, j 1, eq_ix2 j⟩
  have hN : cfg0.N = 8 := N_0
  have ht : t.val < 8 := hN ▸ t.isLt
  obtain ⟨n, hn⟩ : ∃ n : Fin 32768, n.val = t.val * 4096 + q.val := ⟨⟨t.val * 4096 + q.val, by omega⟩, rfl⟩
  show k0_pay2 (F := Ideal) (iblk m c 2 t) (iblk m c 1 t) (iblk m c 0 t) (ix2 e q)
    = Cert.Gate.weightsArrT (tokens m c) (weightRows m c) (biases m c) (((cfg0.win 4).blk t).view.emb (ix2 e q))
  refine (GateBody.weights_apply (iblk m c 2 t) (iblk m c 1 t) (iblk m c 0 t) e q).trans ?_
  rw [emb4 t e q n hn, wgt_eq m c t, biasRow_eq m c t]
  exact Cert.Gate.weight_row _ _ _ _ q n (tile_row m c t q n hn) e

/-! ## The eight blocks cover each output array -/

/-- An index of the logits array is in point `t`'s block iff each coordinate is in the block's range on its axis. -/
theorem mem_blk3 (t : Fin cfg0.N) (i : S64x32768.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v1_0).slice (win0_3.rect t)).set ↔ _
  rw [View.set_slice_whole, Rect.mem_set_unit]
  exact Iff.rfl

/-- The same for the weights array. -/
theorem mem_blk4 (t : Fin cfg0.N) (i : S64x32768.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v1_1).slice (win0_4.rect t)).set ↔ _
  rw [View.set_slice_whole, Rect.mem_set_unit]
  exact Iff.rfl

/-- Column `n` of the logits array is written back by point `n / 4096`. -/
theorem cover3 (i : S64x32768.Idx) : ∃ t : Fin cfg0.N, (cfg0.win 3).flush t = true ∧ i ∈ ((cfg0.win 3).blk t).view.set := by
  have hi0 : (i 0).val < 64 := (i 0).isLt
  have hi1 : (i 1).val < 32768 := (i 1).isLt
  have hN : cfg0.N = 8 := N_0
  obtain ⟨t, ht⟩ : ∃ t : Fin cfg0.N, t.val = (i 1).val / 4096 := ⟨⟨(i 1).val / 4096, by rw [hN]; omega⟩, rfl⟩
  obtain ⟨-, -, -, -, -, -, e6, e7, -⟩ := idx_facts t
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 4096 ≤ (i 1).val ∧ (i 1).val < win0_3.index t (1 : Fin 2) * 4096 + 4096; omega

/-- Column `n` of the weights array likewise. -/
theorem cover4 (i : S64x32768.Idx) : ∃ t : Fin cfg0.N, (cfg0.win 4).flush t = true ∧ i ∈ ((cfg0.win 4).blk t).view.set := by
  have hi0 : (i 0).val < 64 := (i 0).isLt
  have hi1 : (i 1).val < 32768 := (i 1).isLt
  have hN : cfg0.N = 8 := N_0
  obtain ⟨t, ht⟩ : ∃ t : Fin cfg0.N, t.val = (i 1).val / 4096 := ⟨⟨(i 1).val / 4096, by rw [hN]; omega⟩, rfl⟩
  obtain ⟨-, -, -, -, -, -, -, -, e8, e9⟩ := idx_facts t
  refine ⟨t, flush0_4 t, ?_⟩
  rw [mem_blk4]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 4096 ≤ (i 1).val ∧ (i 1).val < win0_4.index t (1 : Fin 2) * 4096 + 4096; omega

/-- The logits array after the run: the experts-major logits of every token. -/
theorem final3 (c : Dev nD) :
    (dats m 0 c).arrAt 3 cfg0.N = Cert.Gate.logitsArrT (tokens m c) (weightRows m c) (biases m c) :=
  (dats m 0 c).arrAt_eq_of_cover 3 _ (fun t _ => flushed3_eq m c t) cover3

/-- The weights array after the run: the experts-major softmax weights of every token. -/
theorem final4 (c : Dev nD) :
    (dats m 0 c).arrAt 4 cfg0.N = Cert.Gate.weightsArrT (tokens m c) (weightRows m c) (biases m c) :=
  (dats m 0 c).arrAt_eq_of_cover 4 _ (fun t _ => flushed4_eq m c t) cover4

end Cert.KernelIdeal.GateBlocks

end
-- ==== Proof.GateRun.lean ====
/-
  The kernel program's run, read. The pallas_call leaves the two experts-major arrays of `GateBlocks`; the host then
  transposes each to token-major — entry `(n, e)` of a transposed array is entry `(e, n)` of the array — and writes the
  temperature, the constant 1. So the program ends with the gate's softmax weights and logits of every token,
  token-major, and the constant; its three argument arrays are unchanged.
-/
import proofs.«169324_g11390253269175_week1_w4_310_13_alg».proof.Proof.GateBlocks
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.GateRun

open Cert.KernelIdeal Cert.KernelIdeal.Gen Cert.KernelIdeal.GateBlocks

variable (m : (ℓ : Loc nD τ sig) → Buf (Elt Ideal) ℓ) (ρ : Dev nD → PrngReg)

/-- The experts-major weights, transposed, are the token-major weights. -/
theorem transpose_weights (x0 : FVec Ideal S32768x768 .f32) (x1 : FVec Ideal S64x768 .f32) (x2 : FVec Ideal S64 .f32) :
    transpose S32768x64 [1, 0] (Cert.Gate.weightsArrT x0 x1 x2) transposes_S64x32768_S32768x64_1_0 = Cert.Gate.weightsArr x0 x1 x2 := by
  funext i
  obtain ⟨n, e, rfl⟩ : ∃ (n : Fin 32768) (e : Fin 64), i = ix2 n e := ⟨i 0, i 1, eq_ix2 i⟩
  exact transpose_ix2_apply _ _ n e

/-- The experts-major logits, transposed, are the token-major logits. -/
theorem transpose_logits (x0 : FVec Ideal S32768x768 .f32) (x1 : FVec Ideal S64x768 .f32) (x2 : FVec Ideal S64 .f32) :
    transpose S32768x64 [1, 0] (Cert.Gate.logitsArrT x0 x1 x2) transposes_S64x32768_S32768x64_1_0 = Cert.Gate.logitsArr x0 x1 x2 := by
  funext i
  obtain ⟨n, e, rfl⟩ : ∃ (n : Fin 32768) (e : Fin 64), i = ix2 n e := ⟨i 0, i 1, eq_ix2 i⟩
  exact transpose_ix2_apply _ _ n e

/-- The first result: the transposed weights array. -/
theorem tail_weights (c : Dev nD) :
    Pipeline.afterTail₀ cfgs (dats m) 0 (V0 m) [hostOps1] c main_v2
      = Cert.Gate.weightsArr (tokens m c) (weightRows m c) (biases m c) := by
  unfold Pipeline.afterTail₀
  show StableHlo.after hostOps1 _ (Proc.devRef .tc main_v2) = _
  after_results
  refine Eq.trans ?_ (transpose_weights (tokens m c) (weightRows m c) (biases m c))
  exact congrArg (fun a => transpose S32768x64 [1, 0] a transposes_S64x32768_S32768x64_1_0)
    ((Pipeline.withArrays_arr spec0 launch0.win.arr_inj c _ _ 4).trans (final4 m c))

/-- The second result: the transposed logits array. -/
theorem tail_logits (c : Dev nD) :
    Pipeline.afterTail₀ cfgs (dats m) 0 (V0 m) [hostOps1] c main_v3
      = Cert.Gate.logitsArr (tokens m c) (weightRows m c) (biases m c) := by
  unfold Pipeline.afterTail₀
  show StableHlo.after hostOps1 _ (Proc.devRef .tc main_v3) = _
  after_results
  refine Eq.trans ?_ (transpose_logits (tokens m c) (weightRows m c) (biases m c))
  exact congrArg (fun a => transpose S32768x64 [1, 0] a transposes_S64x32768_S32768x64_1_0)
    ((Pipeline.withArrays_arr spec0 launch0.win.arr_inj c _ _ 3).trans (final3 m c))

/-- The third result: the temperature. -/
theorem tail_tau (c : Dev nD) :
    Pipeline.afterTail₀ cfgs (dats m) 0 (V0 m) [hostOps1] c main_cst = constant (F := Ideal) S_ .f32 0x3F800000#32 := by
  unfold Pipeline.afterTail₀
  show StableHlo.after hostOps1 _ (Proc.devRef .tc main_cst) = _
  after_results

/-- Every weakly fair execution of the kernel program terminates with the three results at the gate's weights, its logits
    and the constant 1, the arguments unchanged. -/
theorem run : θ_run defs (onTc (τ := τ) (main (F := Ideal))) ⟨m, fun _ => 0, ρ⟩ fun r => ∀ c : Dev nD,
      r.2.mem ((c.tc : Thread nD τ).loc main_v2) = Cert.Gate.weightsArr (tokens m c) (weightRows m c) (biases m c)
      ∧ r.2.mem ((c.tc : Thread nD τ).loc main_v3) = Cert.Gate.logitsArr (tokens m c) (weightRows m c) (biases m c)
      ∧ r.2.mem ((c.tc : Thread nD τ).loc main_cst) = constant (F := Ideal) S_ .f32 0x3F800000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_weights m c),
      ((h c).2 main_v3 (Pipeline.mem_restRefs_of main_v3 (by decide) (by decide))).trans (tail_logits m c),
      ((h c).2 main_cst (Pipeline.mem_restRefs_of main_cst (by decide) (by decide))).trans (tail_tau m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.GateRun

end
-- ==== Proof.lean ====
/-
  A mixture-of-experts router gate: for 32768 tokens of 768 features and 64 experts,
    logits = x · Wᵀ + b,   weights = softmax of the logits along the experts,   temperature = 1.

  The kernel computes both arrays experts-major, a tile of 4096 tokens at a grid point: on a tile it forms
  `W · tileᵀ` plus the bias column, and takes the softmax DOWN each column (maximum, shifted exponential, sum, quotient);
  the host reshapes the bias to a row before the call and transposes the two results after it. The reference forms
  `x · Wᵀ + b` token-major, divides by the temperature 1, and takes `jax.nn.softmax` ALONG each row (maximum from −∞ and
  once more against −∞, shifted exponential, sum from 0, quotient).

  Over the extended reals the two are one function of the three argument arrays (`Proof/GateSpec.lean`):
  the products under the feature sum commute, a quotient by 1 and a maximum with −∞ change nothing, and the gate of a token
  depends on that token's feature row alone, so the tiles' results are pieces of the whole. No law used needs the inputs
  to be finite; the precondition is not opened.
  • `Proof/RefGate.lean`: the reference's stages, read at an index, are the gate.
  • `Proof/GateBody.lean`: the kernel body's two stored values, read at an index, are the gate of the tile's rows.
  • `Proof/GateBlocks.lean`: the eight written-back blocks are the blocks of the experts-major gate arrays, and cover them.
  • `Proof/GateRun.lean`: the host's transposes after the call, and the kernel program's run.
  The three frames are the generated ones (the reference's is its generated run with the results dropped); the idealization
  rewrote nothing, so `preserves` is trivial.
-/
import proofs.«169324_g11390253269175_week1_w4_310_13_alg».proof.Defs
import proofs.«169324_g11390253269175_week1_w4_310_13_alg».proof.Proof.Gen.Kernel
import proofs.«169324_g11390253269175_week1_w4_310_13_alg».proof.Proof.Gen.Kernel.Frame
import proofs.«169324_g11390253269175_week1_w4_310_13_alg».proof.Proof.Gen.KernelIdeal
import proofs.«169324_g11390253269175_week1_w4_310_13_alg».proof.Proof.Gen.KernelIdeal.Frame
import proofs.«169324_g11390253269175_week1_w4_310_13_alg».proof.Proof.Gen.ReferenceIdeal
import proofs.«169324_g11390253269175_week1_w4_310_13_alg».proof.Proof.Gen.ReferenceIdeal.Run
import proofs.«169324_g11390253269175_week1_w4_310_13_alg».proof.Proof.Gen.ReferenceIdeal.Read
import proofs.«169324_g11390253269175_week1_w4_310_13_alg».proof.Proof.Gen.Pre_finite_inputs
import proofs.«169324_g11390253269175_week1_w4_310_13_alg».proof.Proof.RefGate
import proofs.«169324_g11390253269175_week1_w4_310_13_alg».proof.Proof.GateRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the gate's weights, its logits and the constant 1 of the same three argument arrays. -/
theorem algebraic : Cert.algebraic_KernelIdeal_ReferenceIdeal := by
  intro m ρ m' ρ' _ hagree
  refine ⟨fun c => Cert.Gate.weightsArr (Cert.KernelIdeal.GateBlocks.tokens m c) (Cert.KernelIdeal.GateBlocks.weightRows m c)
      (Cert.KernelIdeal.GateBlocks.biases m c),
    fun c => Cert.Gate.logitsArr (Cert.KernelIdeal.GateBlocks.tokens m c) (Cert.KernelIdeal.GateBlocks.weightRows m c)
      (Cert.KernelIdeal.GateBlocks.biases m c),
    fun _ => constant (F := Ideal) Cert.KernelIdeal.S_ .f32 0x3F800000#32,
    Cert.KernelIdeal.GateRun.run m ρ, ?_⟩
  refine (θ_run Cert.ReferenceIdeal.defs _ _).mono (fun _ h c => ?_) (Cert.ReferenceIdeal.Value.run (F := Ideal) m' ρ')
  obtain ⟨h17, h4, hc3, ha0, ha1, ha2⟩ := h c
  obtain ⟨g0, g1, g2⟩ := hagree c
  refine ⟨?_, ?_, hc3, ha0, ha1, ha2⟩
  · rw [h17, Cert.ReferenceIdeal.Read.val_main_v17_eq, Cert.ReferenceIdeal.GateValue.weights_eq, g0, g1, g2]
  · rw [h4, Cert.ReferenceIdeal.Read.val_main_v4_eq, Cert.ReferenceIdeal.GateValue.logits_eq, g0, g1, g2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
